-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192 : Shape := ⟨1, ![8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) (main_arg1 : IVec S8192 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S8192 : Shape := ⟨1, ![8192]⟩
abbrev S8192x1 : Shape := ⟨2, ![8192, 1]⟩
abbrev S1x8192 : Shape := ⟨2, ![1, 8192]⟩
abbrev S128x8192 : Shape := ⟨2, ![128, 8192]⟩
abbrev S128x1 : Shape := ⟨2, ![128, 1]⟩
abbrev S128 : Shape := ⟨1, ![128]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S128x8192, .f32⟩
  | .local _ .vmem, ⟨1, _⟩ => ⟨S128x8192, .f32⟩
  | .local _ .vmem, ⟨2, _⟩ => ⟨S128x1, .i32⟩
  | .local _ .vmem, ⟨3, _⟩ => ⟨S128x1, .i32⟩
  | .local _ .vmem, ⟨4, _⟩ => ⟨S1x8192, .i32⟩
  | .local _ .vmem, ⟨5, _⟩ => ⟨S128x1, .f32⟩
  | .local _ .vmem, ⟨6, _⟩ => ⟨S128x1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8192_S8192x1 : S8192.ShapeCasts S8192x1
  shapeCasts_S8192_S1x8192 : S8192.ShapeCasts S1x8192
  inb_S128x8192_S128x8192_0_0 : ∀ a, (![0, 0] : Fin 2 → Nat) a + S128x8192.size a ≤ S128x8192.size a
  h_S128x8192 : 0 < S128x8192.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  reduces_S128x8192_S128 : S128x8192.Reduces [1] S128
  shapeCasts_S128_S128x1 : S128.ShapeCasts S128x1
  reducesTo_S8192x1_S_d0_1 : S8192x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S8192x1.size a
  hwx0_1 : ∀ i : grid0.Coords, EltTy.bits .i32 = 32 ∨ (Rect.block (s := S8192x1) S128x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .i32 = 32 ∨ (Rect.block (s := S1x8192) S1x8192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S8192x1.size a
  hwx0_3 : ∀ i : grid0.Coords, EltTy.bits .f32 = 32 ∨ (Rect.block (s := S8192x1) S128x1.size (cc0_transform_3 i) (hinb0_3 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192 : Shape := ⟨1, ![8192]⟩
abbrev S_ : Shape := ⟨0, ![]⟩
abbrev S8192x1 : Shape := ⟨2, ![8192, 1]⟩
abbrev S1x8192 : Shape := ⟨2, ![1, 8192]⟩

abbrev nBuf : Space → Nat
  | .hbm => 100
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192, .i32⟩
  | .hbm, ⟨2, _⟩ => ⟨S_, .i32⟩
  | .hbm, ⟨3, _⟩ => ⟨S8192, .i32⟩
  | .hbm, ⟨4, _⟩ => ⟨S8192, .i1⟩
  | .hbm, ⟨5, _⟩ => ⟨S8192x1, .i32⟩
  | .hbm, ⟨6, _⟩ => ⟨S1x8192, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x8192, .f32⟩
  | .hbm, ⟨17, _⟩ => ⟨S8192x8192, .i1⟩
  | .hbm, ⟨18, _⟩ => ⟨S8192x8192, .i1⟩
  | .hbm, ⟨19, _⟩ => ⟨S8192x8192, .i1⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .i1⟩
  | .hbm, ⟨38, _⟩ => ⟨S8192x8192, .i1⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S8192x8192, .i1⟩
  | .hbm, ⟨44, _⟩ => ⟨S8192x8192, .i1⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S_, .f32⟩
  | .hbm, ⟨54, _⟩ => ⟨S8192x8192, .f32⟩
  | .hbm, ⟨55, _⟩ => ⟨S8192x8192, .f32⟩
  | .hbm, ⟨56, _⟩ => ⟨S_, .f32⟩
  | .hbm, ⟨57, _⟩ => ⟨S8192, .f32⟩
  | .hbm, ⟨58, _⟩ => ⟨S_, .f32⟩
  | .hbm, ⟨59, _⟩ => ⟨S8192x8192, .f32⟩
  | .hbm, ⟨60, _⟩ => ⟨S8192x8192, .f32⟩
  | .hbm, ⟨61, _⟩ => ⟨S_, .f32⟩
  | .hbm, ⟨62, _⟩ => ⟨S8192x8192, .f32⟩
  | .hbm, ⟨63, _⟩ => ⟨S8192x8192, .f32⟩
  | .hbm, ⟨64, _⟩ => ⟨S8192x8192, .f32⟩
  | .hbm, ⟨65, _⟩ => ⟨S_, .f32⟩
  | .hbm, ⟨66, _⟩ => ⟨S_, .f32⟩
  | .hbm, ⟨67, _⟩ => ⟨S8192x8192, .f32⟩
  | .hbm, ⟨68, _⟩ => ⟨S8192x8192, .f32⟩
  | .hbm, ⟨69, _⟩ => ⟨S_, .f32⟩
  | .hbm, ⟨70, _⟩ => ⟨S8192, .f32⟩
  | .hbm, ⟨71, _⟩ => ⟨S_, .i1⟩
  | .hbm, ⟨72, _⟩ => ⟨S8192, .i1⟩
  | .hbm, ⟨73, _⟩ => ⟨S_, .i1⟩
  | .hbm, ⟨74, _⟩ => ⟨S8192, .i1⟩
  | .hbm, ⟨75, _⟩ => ⟨S8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S_, .f32⟩
  | .hbm, ⟨80, _⟩ => ⟨S_, .f32⟩
  | .hbm, ⟨81, _⟩ => ⟨S8192, .f32⟩
  | .hbm, ⟨82, _⟩ => ⟨S8192, .f32⟩
  | .hbm, ⟨83, _⟩ => ⟨S8192, .f32⟩
  | .hbm, ⟨84, _⟩ => ⟨S_, .f32⟩
  | .hbm, ⟨85, _⟩ => ⟨S8192, .f32⟩
  | .hbm, ⟨86, _⟩ => ⟨S8192, .f32⟩
  | .hbm, ⟨87, _⟩ => ⟨S_, .f32⟩
  | .hbm, ⟨88, _⟩ => ⟨S_, .f32⟩
  | .hbm, ⟨89, _⟩ => ⟨S8192, .f32⟩
  | .hbm, ⟨90, _⟩ => ⟨S8192, .f32⟩
  | .hbm, ⟨91, _⟩ => ⟨S8192, .f32⟩
  | .hbm, ⟨92, _⟩ => ⟨S_, .f32⟩
  | .hbm, ⟨93, _⟩ => ⟨S_, .f32⟩
  | .hbm, ⟨94, _⟩ => ⟨S8192, .f32⟩
  | .hbm, ⟨95, _⟩ => ⟨S8192, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_call0_v0 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_call1_v0 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_call2_v0 : Ref sig .tc := ⟨.hbm, 53, rfl⟩
abbrev main_call2_v1 : Ref sig .tc := ⟨.hbm, 54, rfl⟩
abbrev main_v37 : Ref sig .tc := ⟨.hbm, 55, rfl⟩
abbrev main_cst_10 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩
abbrev main_cst_12 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_13 : Ref sig .tc := ⟨.hbm, 65, rfl⟩
abbrev main_call3_v0 : Ref sig .tc := ⟨.hbm, 66, rfl⟩
abbrev main_call3_v1 : Ref sig .tc := ⟨.hbm, 67, rfl⟩
abbrev main_v44 : Ref sig .tc := ⟨.hbm, 68, rfl⟩
abbrev main_cst_14 : Ref sig .tc := ⟨.hbm, 69, rfl⟩
abbrev main_v45 : Ref sig .tc := ⟨.hbm, 70, rfl⟩
abbrev main_c_15 : Ref sig .tc := ⟨.hbm, 71, rfl⟩
abbrev main_v46 : Ref sig .tc := ⟨.hbm, 72, rfl⟩
abbrev main_c_16 : Ref sig .tc := ⟨.hbm, 73, rfl⟩
abbrev main_v47 : Ref sig .tc := ⟨.hbm, 74, rfl⟩
abbrev main_v48 : Ref sig .tc := ⟨.hbm, 75, rfl⟩
abbrev main_cst_17 : Ref sig .tc := ⟨.hbm, 76, rfl⟩
abbrev main_v49 : Ref sig .tc := ⟨.hbm, 77, rfl⟩
abbrev main_v50 : Ref sig .tc := ⟨.hbm, 78, rfl⟩
abbrev main_cst_18 : Ref sig .tc := ⟨.hbm, 79, rfl⟩
abbrev main_call4_v0 : Ref sig .tc := ⟨.hbm, 80, rfl⟩
abbrev main_call4_v1 : Ref sig .tc := ⟨.hbm, 81, rfl⟩
abbrev main_v51 : Ref sig .tc := ⟨.hbm, 82, rfl⟩
abbrev main_v52 : Ref sig .tc := ⟨.hbm, 83, rfl⟩
abbrev main_cst_19 : Ref sig .tc := ⟨.hbm, 84, rfl⟩
abbrev main_v53 : Ref sig .tc := ⟨.hbm, 85, rfl⟩
abbrev main_v54 : Ref sig .tc := ⟨.hbm, 86, rfl⟩
abbrev main_cst_20 : Ref sig .tc := ⟨.hbm, 87, rfl⟩
abbrev main_call5_v0 : Ref sig .tc := ⟨.hbm, 88, rfl⟩
abbrev main_call5_v1 : Ref sig .tc := ⟨.hbm, 89, rfl⟩
abbrev main_v55 : Ref sig .tc := ⟨.hbm, 90, rfl⟩
abbrev main_v56 : Ref sig .tc := ⟨.hbm, 91, rfl⟩
abbrev main_cst_21 : Ref sig .tc := ⟨.hbm, 92, rfl⟩
abbrev main_call6_v0 : Ref sig .tc := ⟨.hbm, 93, rfl⟩
abbrev main_call6_v1 : Ref sig .tc := ⟨.hbm, 94, rfl⟩
abbrev main_v57 : Ref sig .tc := ⟨.hbm, 95, rfl⟩
abbrev main_cst_22 : Ref sig .tc := ⟨.hbm, 96, rfl⟩
abbrev main_v58 : Ref sig .tc := ⟨.hbm, 97, rfl⟩
abbrev main_cst_23 : Ref sig .tc := ⟨.hbm, 98, rfl⟩
abbrev main_v59 : Ref sig .tc := ⟨.hbm, 99, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  h_S_ : 0 < S_.numel
  bcast_S_S8192x1 : S_.BroadcastsInDim S8192x1 (![] : Fin 0 → Fin S8192x1.rank)
  bcast_S_S8192x8192 : S_.BroadcastsInDim S8192x8192 (![] : Fin 0 → Fin S8192x8192.rank)
  reducesTo_S8192_S_d0 : S8192.ReducesTo [0] S_

variable [Facts₀]

class Facts : Prop extends Facts₀ where

variable [Facts]
-- ==== Proof.RowLoss.lean ====
/-
  The row loss of the multi-similarity kernel, as one function on the extended reals, and the three facts that
  join the two programs' spellings of it.

  For a row `x` of similarities (8192 entries), the row's own label `lr` and the labels `lc` of the columns:
  an entry `k` is a POSITIVE candidate when its label equals the row's and `x k` lies more than ε below the row's
  maximum, a NEGATIVE candidate when the labels differ. With `minPos` the least positive candidate (the fill `B` = 1e30
  standing where there is none) and `maxNeg` the greatest negative candidate (`-B` where there is none), a negative
  candidate is SELECTED when `x k + δ > minPos`, a positive one when `x k - δ < maxNeg`. The loss of the row is
      log(1 + Σ_{selected positives} e^{-2 (x k - 1/2)}) / 2  +  log(1 + Σ_{selected negatives} e^{40 (x k - 1/2)}) / 40,
  each summand counted only if its selection is not empty, and the whole is 0 for a row labelled 0.

  "The selection is not empty" is written in two ways: as a disjunction over the row of the selection bits, and as
  "the masked sum is above zero". They agree as soon as every term `e^{…}` is above zero, which holds when the
  exponent is not -∞ (`any_eq_sum_pos`); for a finite `x k` the exponents `-2 (x k - 1/2)` and `40 (x k - 1/2)` are
  real numbers (`exp_arg_pos`).
-/
import Idealize.ShloMosaic.PureOps.Ideal
import Idealize.ShloMosaic.PureOps.Ideal.Laws
import Idealize.ShloMosaic.PureOps.Reduce
import Idealize.ShloMosaic.Lib.ValueIdx

noncomputable section

namespace Cert.MsLoss

open Idealize.ShloMosaic Idealize.ShloMosaic.ValueIdx

/-! ## The literals -/

/-- The pattern of `-2.0` denotes the real `-2`. -/
theorem lit_neg_two : Ideal.ofBits .f32 0xC0000000#32 = ((-2 : ℝ) : EReal) := by
  simp [Ideal.ofBits, Ideal.ieee, -EReal.coe_mul]; norm_num

/-- The pattern of `40.0` denotes the real `40`. -/
theorem lit_forty : Ideal.ofBits .f32 0x42200000#32 = ((40 : ℝ) : EReal) := by
  simp [Ideal.ofBits, Ideal.ieee, -EReal.coe_mul]; norm_num

/-- The pattern of `0.5` denotes the real `1/2`. -/
theorem lit_half : Ideal.ofBits .f32 0x3F000000#32 = ((1 / 2 : ℝ) : EReal) := by
  simp [Ideal.ofBits, Ideal.ieee, -EReal.coe_mul]; norm_num

/-- The fill for "no negative candidate": the pattern of `-1e30` denotes minus what the pattern of `1e30` denotes
    (the two words differ in the sign bit only). -/
theorem lit_neg_big : -(Ideal.ofBits .f32 0x7149F2CA#32) = Ideal.ofBits .f32 0xF149F2CA#32 := by
  simp [Ideal.ofBits, Ideal.ieee, -EReal.coe_mul]

/-! ## One-bit words -/

theorem bit_cases (b : BitVec 1) : b = 0#1 ∨ b = 1#1 := by
  by_cases h : b = 1#1
  · exact Or.inr h
  · exact Or.inl (eq_zero_of_ne_one h)

/-- On a one-bit word the complement is the exclusive or with `1`. -/
theorem not_eq_xori (b : BitVec 1) : ~~~b = IntOp.xori b 1#1 := by
  rcases bit_cases b with rfl | rfl <;> rfl

theorem ori_eq_one_iff (a b : BitVec 1) : IntOp.ori a b = 1#1 ↔ a = 1#1 ∨ b = 1#1 := by
  rcases bit_cases a with rfl | rfl <;> rcases bit_cases b with rfl | rfl <;> decide

/-- A disjunction over a finite set of one-bit words, from `0`, is `1` exactly when one of them is. -/
theorem fold_ori_eq_one_iff {ι : Type} [DecidableEq ι] (S : Finset ι) (s : ι → BitVec 1) :
    S.fold IntOp.ori 0#1 s = 1#1 ↔ ∃ k ∈ S, s k = 1#1 := by
  induction S using Finset.induction_on with
  | empty => simp
  | insert a S ha ih =>
    rw [Finset.fold_insert ha, ori_eq_one_iff, ih]
    constructor
    · rintro (h | ⟨k, hk, h⟩)
      · exact ⟨a, Finset.mem_insert_self a S, h⟩
      · exact ⟨k, Finset.mem_insert_of_mem hk, h⟩
    · rintro ⟨k, hk, h⟩
      rcases Finset.mem_insert.mp hk with rfl | hk
      · exact Or.inl h
      · exact Or.inr ⟨k, hk, h⟩

/-! ## "Some entry is selected" is "the masked sum of positive terms is positive" -/

/-- For terms `e k` above zero: the disjunction of the selection bits `s k` is the comparison "`Σ_k (e k if s k else 0) > 0`". -/
theorem any_eq_sum_pos {ι : Type} [Fintype ι] [DecidableEq ι] (s : ι → BitVec 1) (e : ι → EReal) (he : ∀ k, 0 < e k) :
    Finset.univ.fold IntOp.ori 0#1 s
      = Ideal.cmp .ogt (∑ k, Scalar.select (s k) (e k) (Ideal.ofBits .f32 0x00000000#32)) (Ideal.ofBits .f32 0x00000000#32) := by
  rw [Ideal.ofBits_zero_f32]
  by_cases h : ∃ k, s k = 1#1
  · obtain ⟨k0, hk0⟩ := h
    have hfold : Finset.univ.fold IntOp.ori 0#1 s = 1#1 :=
      (fold_ori_eq_one_iff _ s).mpr ⟨k0, Finset.mem_univ k0, hk0⟩
    have hnn : ∀ k ∈ (Finset.univ : Finset ι), (0 : EReal) ≤ Scalar.select (s k) (e k) 0 := fun k _ => by
      rcases bit_cases (s k) with h0 | h1
      · rw [h0, select_zero]
      · rw [h1, select_one]; exact (he k).le
    have hpos : (0 : EReal) < ∑ k, Scalar.select (s k) (e k) 0 :=
      lt_of_lt_of_le (by rw [hk0, select_one]; exact he k0) (Finset.single_le_sum hnn (Finset.mem_univ k0))
    rw [hfold]
    simp [Ideal.cmp, hpos]
  · have hs : ∀ k, s k = 0#1 := fun k => eq_zero_of_ne_one fun hk => h ⟨k, hk⟩
    have hfold : Finset.univ.fold IntOp.ori 0#1 s = 0#1 :=
      eq_zero_of_ne_one fun hf => by
        obtain ⟨k, _, hk⟩ := (fold_ori_eq_one_iff _ s).mp hf
        exact h ⟨k, hk⟩
    have hsum : ∑ k, Scalar.select (s k) (e k) (0 : EReal) = 0 :=
      Finset.sum_eq_zero fun k _ => by rw [hs k, select_zero]
    rw [hfold, hsum]
    simp [Ideal.cmp]

/-- For a real `x` and real factors, `e^{c (x - h)}` is above zero. -/
theorem exp_arg_pos (c h : EReal) (x : EReal) (hc : ∃ r : ℝ, c = r) (hh : ∃ r : ℝ, h = r) (hx : ∃ r : ℝ, x = r) :
    0 < Ideal.exp (c * (x - h)) := by
  obtain ⟨c, rfl⟩ := hc; obtain ⟨h, rfl⟩ := hh; obtain ⟨x, rfl⟩ := hx
  rw [← EReal.coe_sub, ← EReal.coe_mul, Ideal.exp_coe]
  exact EReal.coe_pos.mpr (Real.exp_pos _)

/-! ## The row loss -/

section Row

variable (x : Fin 8192 → EReal) (lr : BitVec 32) (lc : Fin 8192 → BitVec 32)

/-- Entry `k` has the row's label. -/
def same (k : Fin 8192) : BitVec 1 := IntOp.cmpi .eq lr (lc k)

/-- The row's maximum. -/
def rowMax : EReal := (Finset.univ : Finset (Fin 8192)).fold max (Ideal.ofBits .f32 0xFF800000#32) x

/-- A positive candidate: same label, and more than ε below the row's maximum. -/
def posMask (k : Fin 8192) : BitVec 1 :=
  IntOp.andi (same lr lc k) (Ideal.cmp .olt (x k) (rowMax x - Ideal.ofBits .f32 0x3727C5AC#32))

/-- A negative candidate: another label. -/
def negMask (k : Fin 8192) : BitVec 1 := IntOp.xori (same lr lc k) 1#1

/-- The least positive candidate, `1e30` standing for an entry that is none. -/
def minPos : EReal :=
  (Finset.univ : Finset (Fin 8192)).fold min (Ideal.ofBits .f32 0x7F800000#32)
    fun k => Scalar.select (posMask x lr lc k) (x k) (Ideal.ofBits .f32 0x7149F2CA#32)

/-- The greatest negative candidate, `-1e30` standing for an entry that is none. -/
def maxNeg : EReal :=
  (Finset.univ : Finset (Fin 8192)).fold max (Ideal.ofBits .f32 0xFF800000#32)
    fun k => Scalar.select (negMask lr lc k) (x k) (Ideal.ofBits .f32 0xF149F2CA#32)

/-- A selected negative: a negative candidate within δ of the least positive candidate. -/
def negSel (k : Fin 8192) : BitVec 1 :=
  IntOp.andi (negMask lr lc k) (Ideal.cmp .ogt (x k + Ideal.ofBits .f32 0x3DCCCCCD#32) (minPos x lr lc))

/-- A selected positive: a positive candidate within δ of the greatest negative candidate. -/
def posSel (k : Fin 8192) : BitVec 1 :=
  IntOp.andi (posMask x lr lc k) (Ideal.cmp .olt (x k - Ideal.ofBits .f32 0x3DCCCCCD#32) (maxNeg x lr lc))

/-- `e^{-2 (x k - 1/2)}` and `e^{40 (x k - 1/2)}`. -/
def posExp (k : Fin 8192) : EReal := Ideal.exp (Ideal.ofBits .f32 0xC0000000#32 * (x k - Ideal.ofBits .f32 0x3F000000#32))
def negExp (k : Fin 8192) : EReal := Ideal.exp (Ideal.ofBits .f32 0x42200000#32 * (x k - Ideal.ofBits .f32 0x3F000000#32))

/-- The two masked sums. -/
def posSum : EReal := ∑ k : Fin 8192, Scalar.select (posSel x lr lc k) (posExp x k) (Ideal.ofBits .f32 0x00000000#32)
def negSum : EReal := ∑ k : Fin 8192, Scalar.select (negSel x lr lc k) (negExp x k) (Ideal.ofBits .f32 0x00000000#32)

/-- The row's loss. -/
def rowLoss : EReal :=
  Scalar.select (IntOp.cmpi .ne lr 0#32)
    (Scalar.select (Ideal.cmp .ogt (posSum x lr lc) (Ideal.ofBits .f32 0x00000000#32))
        (Ideal.div (Ideal.log1p (posSum x lr lc)) (Ideal.ofBits .f32 0x40000000#32)) (Ideal.ofBits .f32 0x00000000#32)
      + Scalar.select (Ideal.cmp .ogt (negSum x lr lc) (Ideal.ofBits .f32 0x00000000#32))
        (Ideal.div (Ideal.log1p (negSum x lr lc)) (Ideal.ofBits .f32 0x42200000#32)) (Ideal.ofBits .f32 0x00000000#32))
    (Ideal.ofBits .f32 0x00000000#32)

/-- On a row of real numbers, "some positive is selected", as a disjunction, is "the positive sum is above zero". -/
theorem anyPos_eq (hx : ∀ k, ∃ r : ℝ, x k = r) :
    (Finset.univ : Finset (Fin 8192)).fold IntOp.ori 0#1 (posSel x lr lc)
      = Ideal.cmp .ogt (posSum x lr lc) (Ideal.ofBits .f32 0x00000000#32) :=
  any_eq_sum_pos (posSel x lr lc) (posExp x) fun k =>
    exp_arg_pos _ _ _ ⟨_, lit_neg_two⟩ ⟨_, lit_half⟩ (hx k)

/-- Likewise for the negatives. -/
theorem anyNeg_eq (hx : ∀ k, ∃ r : ℝ, x k = r) :
    (Finset.univ : Finset (Fin 8192)).fold IntOp.ori 0#1 (negSel x lr lc)
      = Ideal.cmp .ogt (negSum x lr lc) (Ideal.ofBits .f32 0x00000000#32) :=
  any_eq_sum_pos (negSel x lr lc) (negExp x) fun k =>
    exp_arg_pos _ _ _ ⟨_, lit_forty⟩ ⟨_, lit_half⟩ (hx k)

end Row

end Cert.MsLoss

end
-- ==== Proof.BlockRows.lean ====
/-
  Reading a [128, 8192] block row by row.

  The kernel body reduces its block along the columns (`keepdims=True`): a row's maximum, minimum or sum is a
  [128] vector, cast to a [128, 1] column and broadcast back over the 8192 columns. Read at the entry (p, k):
    * the [128] → [128, 1] cast at (p, 0) is the vector at p;
    * a [128, 1] column broadcast to [128, 8192] is, at (p, k), the column at (p, 0);
    * the reduction of the block along axis 1 is, at p, the fold (maximum, minimum) or the sum over k of the
      block's entries (p, k) — in any order, the extended reals' `max`, `min` and `+` being commutative and associative.
-/
import Idealize.ShloMosaic.PureOps.Ideal.Laws
import Idealize.ShloMosaic.Lib.ValueIdx
import Idealize.ShloMosaic.Lib.ValueLayout
import Idealize.ShloMosaic.Lib.Pipeline.Value

noncomputable section

namespace Cert.MsLoss

open Idealize.ShloMosaic Idealize.ShloMosaic.ValueIdx

variable {α : Type}

/-! ## The keepdims column -/

/-- An `[a]` array cast to `[a, 1]` reads, at `(p, z)`, the operand at `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A row's fold -/

/-- The block, its rows, a column. -/
abbrev Blk : Shape := ⟨2, ![128, 8192]⟩
abbrev Rows : Shape := ⟨1, ![128]⟩
abbrev Col : Shape := ⟨2, ![128, 1]⟩

/-- The row index `p` with the column `k` put back is the entry `(p, k)`. -/
theorem lift_row (h : Blk.Reduces [1] Rows) (p : Fin 128) (k : Fin 8192) : h.lift (ix1 p) k = ix2 p k := by
  funext a
  apply Fin.ext
  match a with
  | ⟨0, _⟩ => rfl
  | ⟨1, _⟩ => rfl

/-- A `multi_reduction <minimumf>` over one axis, read at `Ideal`: the fold of `min` from the accumulator's value over
    that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Row `p`'s maximum, as the keepdims column holds it. -/
theorem rowMax_at (src : FVec Ideal Blk .f32) (h : Blk.Reduces [1] Rows) (hc : Rows.ShapeCasts Col) (hφ : FKind.Formats .f32)
    (hacc : (0xFF800000#32 : BitVec 32) = FKind.maximumf.neutral .f32 hφ) (p : Fin 128) :
    shapeCast Col (multiReduction .maximumf [1] Rows src 0xFF800000#32 h hφ hacc) hc (ix2 p (0 : Fin 1))
      = (Finset.univ : Finset (Fin 8192)).fold max (Ideal.ofBits .f32 0xFF800000#32) (fun k => src (ix2 p k)) := by
  refine (shapeCast_a_a1_apply _ hc p 0).trans ?_
  refine (Ideal.multiReduction_maximumf_single src _ h hφ hacc (ix1 p)).trans ?_
  exact congrArg (fun f => (Finset.univ : Finset (Fin 8192)).fold max (Ideal.ofBits .f32 0xFF800000#32) f)
    (funext fun k => congrArg src (lift_row h p k))

/-- Row `p`'s minimum, as the keepdims column holds it. -/
theorem rowMin_at (src : FVec Ideal Blk .f32) (h : Blk.Reduces [1] Rows) (hc : Rows.ShapeCasts Col) (hφ : FKind.Formats .f32)
    (hacc : (0x7F800000#32 : BitVec 32) = FKind.minimumf.neutral .f32 hφ) (p : Fin 128) :
    shapeCast Col (multiReduction .minimumf [1] Rows src 0x7F800000#32 h hφ hacc) hc (ix2 p (0 : Fin 1))
      = (Finset.univ : Finset (Fin 8192)).fold min (Ideal.ofBits .f32 0x7F800000#32) (fun k => src (ix2 p k)) := by
  refine (shapeCast_a_a1_apply _ hc p 0).trans ?_
  refine (multiReduction_minimumf_single src _ h hφ hacc (ix1 p)).trans ?_
  exact congrArg (fun f => (Finset.univ : Finset (Fin 8192)).fold min (Ideal.ofBits .f32 0x7F800000#32) f)
    (funext fun k => congrArg src (lift_row h p k))

/-- Row `p`'s sum, as the keepdims column holds it. -/
theorem rowSum_at (src : FVec Ideal Blk .f32) (h : Blk.Reduces [1] Rows) (hc : Rows.ShapeCasts Col) (hφ : FKind.Formats .f32)
    (hacc : (0x00000000#32 : BitVec 32) = FKind.add.neutral .f32 hφ) (p : Fin 128) :
    shapeCast Col (multiReduction .add [1] Rows src 0x00000000#32 h hφ hacc) hc (ix2 p (0 : Fin 1))
      = ∑ k : Fin 8192, src (ix2 p k) := by
  refine (shapeCast_a_a1_apply _ hc p 0).trans ?_
  refine (Ideal.multiReduction_add_single src _ h hφ hacc (ix1 p)).trans ?_
  exact Finset.sum_congr rfl fun k _ => congrArg src (lift_row h p k)

end Cert.MsLoss

end
-- ==== Proof.KernelRow.lean ====
/-
  The kernel body's stored column, row by row.

  On a block of 128 rows the body stores a [128, 1] column. Its entry of row `p` depends on row `p` of the block of
  similarities only, on that row's label and on the 8192 column labels: it is the row loss (`rowLoss`) of those.
  The proof follows the body's arithmetic in its order — the label comparison, the row's maximum, the positive and
  the negative candidates, the least positive and the greatest negative candidate, the two selections, the two
  masked sums of exponentials — reading each vector at the entry `(p, k)`: a pointwise operation at that entry, a
  keepdims reduction at row `p` as the fold or the sum over the row's entries.
-/
import proofs.«138227_j88880053223606_2_alg».proof.Proof.Gen.KernelIdeal.Skeleton
import proofs.«138227_j88880053223606_2_alg».proof.Proof.RowLoss
import proofs.«138227_j88880053223606_2_alg».proof.Proof.BlockRows

noncomputable section

namespace Cert.KernelIdeal.RowValue

open Idealize.ShloMosaic Idealize.ShloMosaic.ValueIdx Cert.KernelIdeal Cert.KernelIdeal.Gen Cert.MsLoss

variable (x0 : Vec Ideal S128x8192 .f32) (x1 : Vec Ideal S128x1 .i32) (x2 : Vec Ideal S1x8192 .i32)

/-- Row `p` of the block, the row's label, the columns' labels. -/
abbrev row (p : Fin 128) : Fin 8192 → EReal := fun k => x0 (ix2 p k)
abbrev lrow (p : Fin 128) : BitVec 32 := x1 (ix2 p (0 : Fin 1))
abbrev lcol : Fin 8192 → BitVec 32 := fun k => x2 (ix2 (0 : Fin 1) k)

/-- The label column, as loaded. -/
theorem pay2_eq : k0_pay2 (F := Ideal) x1 = x1 := shapeCast_self x1 _

/-- The one-bit and the exponential vector operations act entry by entry. -/
theorem andi_at {s : Shape} (a b : IVec s 1) (i : s.Idx) : andi a b i = IntOp.andi (a i) (b i) := rfl
theorem xori_at {s : Shape} (a b : IVec s 1) (i : s.Idx) : xori a b i = IntOp.xori (a i) (b i) := rfl
theorem exp_at {s : Shape} (a : FVec Ideal s .f32) (i : s.Idx) : exp a i = Ideal.exp (a i) := rfl

/-- Entry (p, k) of the label comparison: the row's label against column `k`'s. -/
theorem pay3_at (p : Fin 128) (k : Fin 8192) :
    k0_pay3 (F := Ideal) x1 x2 (ix2 p k) = same (lrow x1 p) (lcol x2) k := by
  unfold k0_pay3 same
  rw [pay2_eq]
  show IntOp.cmpi .eq (broadcastTo S128x8192 x1 _ (ix2 p k)) (broadcastTo S128x8192 (shapeCast S1x8192 x2 _) _ (ix2 p k)) = _
  rw [broadcastTo_a1_ab_apply, broadcastTo_1b_ab_apply, shapeCast_self]

/-- Entry (p, k) of the positive candidates. -/
theorem pay4_at (p : Fin 128) (k : Fin 8192) :
    k0_pay4 (F := Ideal) x0 x1 x2 (ix2 p k) = posMask (row x0 p) (lrow x1 p) (lcol x2) k := by
  unfold k0_pay4 posMask
  dsimp only
  rw [andi_at, cmpf_apply, pay3_at, broadcastTo_a1_ab_apply, subf_apply, broadcast_apply]
  exact congrArg (fun t => IntOp.andi (same (lrow x1 p) (lcol x2) k)
    (Ideal.cmp .olt (x0 (ix2 p k)) (t - Ideal.ofBits .f32 0x3727C5AC#32))) (rowMax_at x0 _ _ _ _ p)

/-- Entry (p, k) of the negative candidates. -/
theorem pay5_at (p : Fin 128) (k : Fin 8192) :
    k0_pay5 (F := Ideal) x1 x2 (ix2 p k) = negMask (lrow x1 p) (lcol x2) k := by
  unfold k0_pay5 negMask
  show IntOp.xori (k0_pay3 (F := Ideal) x1 x2 (ix2 p k)) 1#1 = _
  rw [pay3_at]

/-- Row `p`'s least positive candidate. -/
theorem minPos_at (h : S128x8192.Reduces [1] S128) (hc : S128.ShapeCasts S128x1) (hφ : FKind.Formats .f32)
    (hacc : (0x7F800000#32 : BitVec 32) = FKind.minimumf.neutral .f32 hφ) (p : Fin 128) :
    shapeCast S128x1 (multiReduction (F := Ideal) .minimumf [1] S128
        (select (k0_pay4 (F := Ideal) x0 x1 x2) x0 (broadcast S128x8192 (Scalar.ofBits (F := Ideal) .f32 0x7149F2CA#32))) 0x7F800000#32 h hφ hacc) hc (ix2 p (0 : Fin 1))
      = minPos (row x0 p) (lrow x1 p) (lcol x2) := by
  refine (rowMin_at _ h hc hφ hacc p).trans ?_
  unfold minPos
  refine congrArg (fun f => (Finset.univ : Finset (Fin 8192)).fold min (Ideal.ofBits .f32 0x7F800000#32) f) (funext fun k => ?_)
  show Scalar.select (k0_pay4 (F := Ideal) x0 x1 x2 (ix2 p k)) (x0 (ix2 p k)) (Ideal.ofBits .f32 0x7149F2CA#32) = _
  rw [pay4_at]

/-- Row `p`'s greatest negative candidate. -/
theorem maxNeg_at (h : S128x8192.Reduces [1] S128) (hc : S128.ShapeCasts S128x1) (hφ : FKind.Formats .f32)
    (hacc : (0xFF800000#32 : BitVec 32) = FKind.maximumf.neutral .f32 hφ) (p : Fin 128) :
    shapeCast S128x1 (multiReduction (F := Ideal) .maximumf [1] S128
        (select (k0_pay5 (F := Ideal) x1 x2) x0 (broadcast S128x8192 (Scalar.ofBits (F := Ideal) .f32 0xF149F2CA#32))) 0xFF800000#32 h hφ hacc) hc (ix2 p (0 : Fin 1))
      = maxNeg (row x0 p) (lrow x1 p) (lcol x2) := by
  refine (rowMax_at _ h hc hφ hacc p).trans ?_
  unfold maxNeg
  refine congrArg (fun f => (Finset.univ : Finset (Fin 8192)).fold max (Ideal.ofBits .f32 0xFF800000#32) f) (funext fun k => ?_)
  show Scalar.select (k0_pay5 (F := Ideal) x1 x2 (ix2 p k)) (x0 (ix2 p k)) (Ideal.ofBits .f32 0xF149F2CA#32) = _
  rw [pay5_at]

/-- Entry (p, k) of the selected negatives. -/
theorem pay6_at (p : Fin 128) (k : Fin 8192) :
    k0_pay6 (F := Ideal) x0 x1 x2 (ix2 p k) = negSel (row x0 p) (lrow x1 p) (lcol x2) k := by
  unfold k0_pay6 negSel
  dsimp only
  rw [andi_at, cmpf_apply, pay5_at, broadcastTo_a1_ab_apply, addf_apply, broadcast_apply]
  exact congrArg (fun t => IntOp.andi (negMask (lrow x1 p) (lcol x2) k)
    (Ideal.cmp .ogt (x0 (ix2 p k) + Ideal.ofBits .f32 0x3DCCCCCD#32) t)) (minPos_at x0 x1 x2 _ _ _ _ p)

/-- Entry (p, k) of the similarities less one half. -/
theorem pay7_at (p : Fin 128) (k : Fin 8192) :
    k0_pay7 (F := Ideal) x0 (ix2 p k) = x0 (ix2 p k) - Ideal.ofBits .f32 0x3F000000#32 := rfl

/-- Entry (p, k) of the positive terms: `e^{-2 (x - 1/2)}` where the positive is selected, else zero. -/
theorem pay8_at (p : Fin 128) (k : Fin 8192) :
    k0_pay8 (F := Ideal) x0 x1 x2 (ix2 p k)
      = Scalar.select (posSel (row x0 p) (lrow x1 p) (lcol x2) k) (posExp (row x0 p) k) (Ideal.ofBits .f32 0x00000000#32) := by
  unfold k0_pay8 posSel posExp
  dsimp only
  rw [select_apply, andi_at, cmpf_apply, pay4_at, broadcastTo_a1_ab_apply, subf_apply, broadcast_apply, exp_at, mulf_apply,
    broadcast_apply, pay7_at, broadcast_apply]
  exact congrArg (fun t => Scalar.select (IntOp.andi (posMask (row x0 p) (lrow x1 p) (lcol x2) k)
      (Ideal.cmp .olt (x0 (ix2 p k) - Ideal.ofBits .f32 0x3DCCCCCD#32) t))
    (Ideal.exp (Ideal.ofBits .f32 0xC0000000#32 * (x0 (ix2 p k) - Ideal.ofBits .f32 0x3F000000#32))) (Ideal.ofBits .f32 0x00000000#32))
    (maxNeg_at x0 x1 x2 _ _ _ _ p)

/-- Row `p`'s sum over the selected positives. -/
theorem posSum_at (h : S128x8192.Reduces [1] S128) (hc : S128.ShapeCasts S128x1) (hφ : FKind.Formats .f32)
    (hacc : (0x00000000#32 : BitVec 32) = FKind.add.neutral .f32 hφ) (p : Fin 128) :
    shapeCast S128x1 (multiReduction (F := Ideal) .add [1] S128 (k0_pay8 (F := Ideal) x0 x1 x2) 0x00000000#32 h hφ hacc) hc (ix2 p (0 : Fin 1))
      = posSum (row x0 p) (lrow x1 p) (lcol x2) :=
  (rowSum_at _ h hc hφ hacc p).trans (Finset.sum_congr rfl fun k _ => pay8_at x0 x1 x2 p k)

/-- Row `p`'s sum over the selected negatives. -/
theorem negSum_at (h : S128x8192.Reduces [1] S128) (hc : S128.ShapeCasts S128x1) (hφ : FKind.Formats .f32)
    (hacc : (0x00000000#32 : BitVec 32) = FKind.add.neutral .f32 hφ) (p : Fin 128) :
    shapeCast S128x1 (multiReduction (F := Ideal) .add [1] S128
        (select (k0_pay6 (F := Ideal) x0 x1 x2)
          (exp (mulf (broadcast S128x8192 (Scalar.ofBits (F := Ideal) .f32 0x42200000#32)) (k0_pay7 (F := Ideal) x0)))
          (broadcast S128x8192 (Scalar.ofBits (F := Ideal) .f32 0x00000000#32))) 0x00000000#32 h hφ hacc) hc (ix2 p (0 : Fin 1))
      = negSum (row x0 p) (lrow x1 p) (lcol x2) := by
  refine (rowSum_at _ h hc hφ hacc p).trans (Finset.sum_congr rfl fun k _ => ?_)
  show Scalar.select (k0_pay6 (F := Ideal) x0 x1 x2 (ix2 p k))
    (Ideal.exp (Ideal.ofBits .f32 0x42200000#32 * k0_pay7 (F := Ideal) x0 (ix2 p k))) (Ideal.ofBits .f32 0x00000000#32) = _
  rw [pay6_at, pay7_at]
  rfl

/-- The stored column at row `p`: the row loss of row `p`. -/
theorem stored_at (p : Fin 128) :
    k0_pay1 (F := Ideal) (k0_pay2 x1) (k0_pay6 x0 x1 x2) (k0_pay7 x0) (k0_pay8 x0 x1 x2) (ix2 p (0 : Fin 1))
      = rowLoss (row x0 p) (lrow x1 p) (lcol x2) := by
  rw [pay2_eq]
  unfold k0_pay1 rowLoss
  rw [← posSum_at x0 x1 x2 reduces_S128x8192_S128 shapeCasts_S128_S128x1 (.inl rfl) rfl p,
    ← negSum_at x0 x1 x2 reduces_S128x8192_S128 shapeCasts_S128_S128x1 (.inl rfl) rfl p]
  rfl

end Cert.KernelIdeal.RowValue

end
-- ==== Proof.Total.lean ====
/-
  The loss of the whole batch: the row losses summed over the 8192 rows and divided by 8192.

  The kernel holds the row losses as an [8192, 1] column and the reference as an [8192] vector; summed over every index,
  both are the sum over the rows `r` (`sum_col`, `sum_idx1`).
-/
import proofs.«138227_j88880053223606_2_alg».proof.Proof.RowLoss

noncomputable section

namespace Cert.MsLoss

open Idealize.ShloMosaic Idealize.ShloMosaic.ValueIdx

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over an [n, 1] column's indices is the sum over its rows. -/
theorem sum_col {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

/-- The row losses of a batch: row `r` of the similarities, its label, all the labels. -/
def lossOf (sim : (⟨2, ![8192, 8192]⟩ : Shape).Idx → EReal) (lab : (⟨1, ![8192]⟩ : Shape).Idx → BitVec 32) (r : Fin 8192) : EReal :=
  rowLoss (fun k => sim (ix2 r k)) (lab (ix1 r)) (fun k => lab (ix1 k))

/-- The batch's loss from its row losses: their sum (from the sum's initial zero) over 8192. -/
def total (f : Fin 8192 → EReal) : EReal :=
  Ideal.div (Ideal.ofBits .f32 0x00000000#32 + ∑ r : Fin 8192, f r) (Ideal.ofBits .f32 0x46000000#32)

/-- The result of both programs, as one function of the two argument arrays. -/
def G (sim : (⟨2, ![8192, 8192]⟩ : Shape).Idx → EReal) (lab : (⟨1, ![8192]⟩ : Shape).Idx → BitVec 32) :
    (⟨0, ![]⟩ : Shape).Idx → EReal :=
  fun _ => total (lossOf sim lab)

end Cert.MsLoss

end
-- ==== Proof.KernelArray.lean ====
/-
  The kernel's output array after the run.

  The grid has 64 points; point `t` works on rows 128 t … 128 t + 127. Its three input blocks are: those rows of the
  similarities (all 8192 columns); those rows of the label column, which the host's reshape of the label vector makes
  (entry (r, 0) of the column is the label of row r); and the one label row, likewise (entry (0, k) is the label of column
  k), the same block at every point. By the row lemma the point writes back, at its row `p`, the row loss of row
  128 t + p of the batch; the 64 blocks of 128 rows tile the [8192, 1] output array, so after the run the array holds
  the row loss of row r at (r, 0), for every r.
-/
import proofs.«138227_j88880053223606_2_alg».proof.Proof.Gen.KernelIdeal.Frame
import proofs.«138227_j88880053223606_2_alg».proof.Proof.KernelRow
import proofs.«138227_j88880053223606_2_alg».proof.Proof.Total
import Idealize.ShloMosaic.Lib.Pipeline.Value
import Idealize.ShloMosaic.Lib.StableHlo.Run
import Idealize.ShloMosaic.Lib.ValueLayout

noncomputable section

namespace Cert.KernelIdeal.ArrayValue

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.MsLoss Cert.KernelIdeal.RowValue

variable (m : (ℓ : Loc nD τ sig) → Buf (Elt Ideal) ℓ) (ρ : Dev nD → PrngReg)

/-- The two argument arrays on core `c`. -/
abbrev sim (c : Dev nD) : S8192x8192.Idx → EReal := m ((c : Thread nD τ).loc main_arg0)
abbrev labl (c : Dev nD) : S8192.Idx → BitVec 32 := m ((c : Thread nD τ).loc main_arg1)

theorem hz : (![0, 0] : Fin 2 → Nat) = fun _ => 0 := funext fun a => by fin_cases a <;> rfl

/-- The printed index maps over the grid: windows 0, 1 and 3 are at block row `t`, block column 0; window 2 stays at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s blocks is row `128 t + p` of the batch. -/
def rowOfBlk (t : Fin cfg0.N) (p : Fin 128) : Fin 8192 :=
  ⟨128 * t.val + p.val, by have h := t.isLt; have hN : cfg0.N = 64 := N_0; have := p.isLt; omega⟩

/-! ## The arrays the host makes before the region -/

/-- The label column: the label vector reshaped to [8192, 1]. -/
theorem V_col (c : Dev nD) :
    (V m c main_v0 : S8192x1.Idx → BitVec 32) = shapeCast S8192x1 (labl m c) shapeCasts_S8192_S8192x1 := by
  show StableHlo.after hostOps0 (fun b => m (c, b)) (Proc.devRef .tc main_v0) = _
  after_results
  rfl

/-- The label row: the label vector reshaped to [1, 8192]. -/
theorem V_rowv (c : Dev nD) :
    (V m c main_v1 : S1x8192.Idx → BitVec 32) = shapeCast S1x8192 (labl m c) shapeCasts_S8192_S1x8192 := by
  show StableHlo.after hostOps0 (fun b => m (c, b)) (Proc.devRef .tc main_v1) = _
  after_results
  rfl

/-! ## The input blocks at a point -/

/-- Entry (p, k) of point `t`'s block of similarities. -/
theorem iblk0_at (c : Dev nD) (t : Fin cfg0.N) (p : Fin 128) (k : Fin 8192) :
    (iblk m c 0 t : Vec Ideal S128x8192 .f32) (ix2 p k) = sim m c (ix2 (rowOfBlk t p) k) := by
  obtain ⟨e0, e1, -⟩ := idx_facts t
  unfold iblk
  rw [View.read_apply]
  show V m c main_arg0 _ = _
  rw [V_main_arg0]
  refine congrArg (sim m c) (funext fun a => Fin.ext ?_)
  match a with
  | ⟨0, _⟩ => show win0_0.index t 0 * 128 + 1 * p.val = 128 * t.val + p.val; rw [e0]; omega
  | ⟨1, _⟩ => show win0_0.index t 1 * 8192 + 1 * k.val = k.val; rw [e1]; omega

/-- Entry (p, 0) of point `t`'s block of the label column: the label of row 128 t + p. -/
theorem iblk1_at (c : Dev nD) (t : Fin cfg0.N) (p : Fin 128) :
    (iblk m c 1 t : Vec Ideal S128x1 .i32) (ix2 p (0 : Fin 1)) = labl m c (ix1 (rowOfBlk t p)) := by
  obtain ⟨-, -, e2, e3, -⟩ := idx_facts t
  unfold iblk
  rw [View.read_apply]
  show V m c main_v0 _ = _
  rw [V_col]
  refine (congrArg (shapeCast S8192x1 (labl m c) shapeCasts_S8192_S8192x1) (?_ : _ = ix2 (rowOfBlk t p) (0 : Fin 1))).trans
    (shapeCast_a_a1_apply _ _ _ _)
  refine funext fun a => Fin.ext ?_
  match a with
  | ⟨0, _⟩ => show win0_1.index t 0 * 128 + 1 * p.val = 128 * t.val + p.val; rw [e2]; omega
  | ⟨1, _⟩ => show win0_1.index t 1 * 1 + 1 * 0 = 0; rw [e3]

/-- Entry (0, k) of the block of the label row: the label of column k. -/
theorem iblk2_at (c : Dev nD) (t : Fin cfg0.N) (k : Fin 8192) :
    (iblk m c 2 t : Vec Ideal S1x8192 .i32) (ix2 (0 : Fin 1) k) = labl m c (ix1 k) := by
  obtain ⟨-, -, -, -, e4, e5, -⟩ := idx_facts t
  unfold iblk
  rw [View.read_apply]
  show V m c main_v1 _ = _
  rw [V_rowv]
  refine (congrArg (shapeCast S1x8192 (labl m c) shapeCasts_S8192_S1x8192) (?_ : _ = ix2 (0 : Fin 1) k)).trans
    (shapeCast_a_1a_apply _ _ _ _)
  refine funext fun a => Fin.ext ?_
  match a with
  | ⟨0, _⟩ => show win0_2.index t 0 * 1 + 1 * 0 = 0; rw [e4]
  | ⟨1, _⟩ => show win0_2.index t 1 * 8192 + 1 * k.val = k.val; rw [e5]; omega

/-! ## What a point writes back, and the array -/

/-- The column of row losses: at (r, z) the loss of row r. -/
def colOf (s : S8192x8192.Idx → EReal) (l : S8192.Idx → BitVec 32) : S8192x1.Idx → EReal :=
  fun i => lossOf s l ⟨(i 0).val, idx2_lt0 i⟩

/-- WHAT POINT `t` WRITES BACK is block `t` of the column of row losses. -/
theorem flushed_eq (c : Dev nD) (t : Fin cfg0.N) :
    (dats m 0 c).flushed 3 t = ((cfg0.win 3).blk t).view.read (Elt Ideal) (colOf (sim m c) (labl m c)) := by
  show (cfg0.win 3).cut (grid0.coords t) ((dats m 0 c).after 3 t) = _
  rw [after0_3]
  unfold out0_3
  rw [View.canon_unit_zero hz]
  simp only [View.ld_unit_zero (S := S128x8192) hz, View.ld_unit_zero (S := S128x1) hz, View.ld_unit_zero (S := S1x8192) hz]
  obtain ⟨-, -, -, -, -, -, e6, e7⟩ := idx_facts t
  funext j
  obtain ⟨p, z, rfl⟩ : ∃ (p : Fin 128) (z : Fin 1), j = ix2 p z := ⟨j 0, j 1, eq_ix2 j⟩
  obtain rfl : z = 0 := Subsingleton.elim _ _
  refine (stored_at (iblk m c 0 t) (iblk m c 1 t) (iblk m c 2 t) p).trans ?_
  rw [View.read_apply]
  have hR : (⟨((((cfg0.win 3).blk t).view.emb (ix2 p (0 : Fin 1))) 0).val, idx2_lt0 _⟩ : Fin 8192) = rowOfBlk t p :=
    Fin.ext (by show win0_3.index t 0 * 128 + 1 * p.val = 128 * t.val + p.val; rw [e6]; omega)
  unfold colOf lossOf
  rw [hR]
  have h0 : row (iblk m c 0 t) p = fun k => sim m c (ix2 (rowOfBlk t p) k) := funext fun k => iblk0_at m c t p k
  have h1 : lrow (iblk m c 1 t) p = labl m c (ix1 (rowOfBlk t p)) := iblk1_at m c t p
  have h2 : lcol (iblk m c 2 t) = fun k => labl m c (ix1 k) := funext fun k => iblk2_at m c t k
  rw [h0, h1, h2]
  exact (cast_eq _ _).symm

/-- An index of the output array is in point `t`'s block iff each coordinate is in the block's range on its axis. -/
theorem mem_blk3 (t : Fin cfg0.N) (i : S8192x1.Idx) :
    i ∈ ((cfg0.win 3).blk t).view.set ↔ ∀ a : Fin 2, win0_3.index t a * S128x1.size a ≤ (i a).val ∧ (i a).val < win0_3.index t a * S128x1.size a + S128x1.size a := by
  show i ∈ ((View.whole main_v2).slice (win0_3.rect t)).set ↔ _
  rw [View.set_slice_whole, Rect.mem_set_unit]
  exact Iff.rfl

/-- The 64 blocks cover the array: row r is in the block of point r / 128. -/
theorem cover (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  have hN : cfg0.N = 64 := N_0
  obtain ⟨t, ht⟩ : ∃ t : Fin cfg0.N, t.val = (i 0).val / 128 := ⟨⟨(i 0).val / 128, by omega⟩, rfl⟩
  obtain ⟨-, -, -, -, -, -, e6, e7⟩ := idx_facts t
  refine ⟨t, flush0_3 t, ?_⟩
  rw [mem_blk3]
  intro a
  match a with
  | ⟨0, _⟩ => show win0_3.index t 0 * 128 ≤ (i 0).val ∧ (i 0).val < win0_3.index t 0 * 128 + 128; rw [e6, ht]; omega
  | ⟨1, _⟩ => show win0_3.index t 1 * 1 ≤ (i 1).val ∧ (i 1).val < win0_3.index t 1 * 1 + 1; rw [e7]; omega

/-- THE ARRAY after the run: the column of row losses. -/
theorem final (c : Dev nD) : (dats m 0 c).arrAt 3 cfg0.N = colOf (sim m c) (labl m c) :=
  (dats m 0 c).arrAt_eq_of_cover 3 _ (fun t _ => flushed_eq m c t) cover

end Cert.KernelIdeal.ArrayValue

end
-- ==== Proof.KernelRun.lean ====
/-
  The kernel's run and its result.

  After the region the host sums the [8192, 1] output array over every index, from zero, and divides by 8192. The array
  holds the row losses (`final`), so the result is the function `G` of the two argument arrays; the frame run gives the
  array and leaves the arguments as they were.
-/
import proofs.«138227_j88880053223606_2_alg».proof.Proof.KernelArray
import Idealize.ShloMosaic.Lib.IdealHost

noncomputable section

namespace Cert.KernelIdeal.ArrayValue

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.MsLoss Cert.KernelIdeal.RowValue

variable (m : (ℓ : Loc nD τ sig) → Buf (Elt Ideal) ℓ) (ρ : Dev nD → PrngReg)

/-- The sum of the column of row losses over every index, from zero, over 8192: `G`. -/
theorem tail_value (c : Dev nD) :
    Host.divf (F := Ideal) (Host.reduceAdd (F := Ideal) (colOf (sim m c) (labl m c)) (constant (F := Ideal) S_ .f32 0x00000000#32) reducesTo_S8192x1_S_d0_1 h_S_)
        (constant (F := Ideal) S_ .f32 0x46000000#32)
      = G (sim m c) (labl m c) := by
  funext j
  rw [hostDivf_apply, hostReduceAdd_apply, Ideal.hostReduceAdd_total reducesTo_S8192x1_S_d0_1 (fun b => b.elim0), sum_col]
  rfl

/-- What the lines after the region leave in the result buffer. -/
theorem tail_eq (c : Dev nD) :
    Pipeline.afterTail₀ cfgs (dats m) 0 (V0 m) [hostOps1] c main_v4 = G (sim m c) (labl m c) := by
  unfold Pipeline.afterTail₀
  show StableHlo.after hostOps1 _ (Proc.devRef .tc main_v4) = _
  after_results
  rw [Pipeline.withArrays_arr spec0 launch0.win.arr_inj c _ _ 3, final m c]
  exact tail_value m c

/-- The run, read: the result at `G` of the argument arrays, the arguments unchanged. -/
theorem run : θ_run defs (onTc (τ := τ) (main (F := Ideal))) ⟨m, fun _ => 0, ρ⟩ fun r => ∀ c : Dev nD,
      r.2.mem ((c.tc : Thread nD τ).loc main_v4) = G (sim m c) (labl m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (tail_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelIdeal.ArrayValue

end
-- ==== Proof.RefRow.lean ====
/-
  The reference's row losses, row by row.

  The reference computes on the whole [8192, 8192] array; its vector of row losses (the value summed at the end) has at
  row `r` the row loss (`rowLoss`) of row `r` of the similarities, of that row's label and of all the labels — the function
  the kernel's stored column holds. The reference spells three things differently: the negative candidates as the
  complement of the label comparison (the kernel: exclusive or with 1), the fill for "no negative candidate" as the negation
  of 1e30 (the kernel: the literal -1e30), and "some entry is selected" as a disjunction over the row (the kernel: the masked
  sum is above zero). The first two are equal outright; the third is equal on a row of real numbers, where every term
  `e^{…}` of the masked sums is above zero.
-/
import proofs.«138227_j88880053223606_2_alg».proof.Proof.RefReadP
import proofs.«138227_j88880053223606_2_alg».proof.Proof.RowLoss

noncomputable section

namespace Cert.ReferenceIdeal.RowValue

open Idealize.ShloMosaic Idealize.ShloMosaic.ValueIdx Cert.ReferenceIdeal Cert.ReferenceIdeal.Gen Cert.ReferenceIdeal.ReadP Cert.MsLoss

variable (x0 : (⟨S8192x8192, .f32⟩ : BufTy).Contents (Elt Ideal)) (x1 : (⟨S8192, .i32⟩ : BufTy).Contents (Elt Ideal))

/-- Row `r` of the similarities, its label, all the labels. -/
abbrev row (r : Fin 8192) : Fin 8192 → EReal := fun k => x0 (ix2 r k)
abbrev lab (r : Fin 8192) : BitVec 32 := x1 (ix1 r)
abbrev labs : Fin 8192 → BitVec 32 := fun k => x1 (ix1 k)

/-! ## The broadcasts' index maps at the entry (r, k) -/

theorem i_v4v2 (r k : Fin 8192) : idx_main_v2 (idx_main_v4 (ix2 r k)) = ix1 r :=
  funext fun a => by match a with | ⟨0, _⟩ => rfl
theorem i_v5v3 (r k : Fin 8192) : idx_main_v3 (idx_main_v5 (ix2 r k)) = ix1 k :=
  funext fun a => by match a with | ⟨0, _⟩ => rfl
theorem i_v11v8 (r k : Fin 8192) : idx_main_v8 (idx_main_v11 (ix2 r k)) = ix1 r :=
  funext fun a => by match a with | ⟨0, _⟩ => rfl
theorem i_v24v17 (r k : Fin 8192) : idx_main_v17 (idx_main_v24 (ix2 r k)) = ix1 r :=
  funext fun a => by match a with | ⟨0, _⟩ => rfl
theorem i_v29v21 (r k : Fin 8192) : idx_main_v21 (idx_main_v29 (ix2 r k)) = ix1 r :=
  funext fun a => by match a with | ⟨0, _⟩ => rfl
theorem i_v38 (r k : Fin 8192) : idx_main_v38 (ix1 r) k = ix2 r k :=
  funext fun a => by match a with | ⟨0, _⟩ => rfl | ⟨1, _⟩ => rfl
theorem i_v45 (r k : Fin 8192) : idx_main_v45 (ix1 r) k = ix2 r k :=
  funext fun a => by match a with | ⟨0, _⟩ => rfl | ⟨1, _⟩ => rfl

/-! ## A reduction along the rows, at row r -/

/-- The row index `r` with the column `k` put back is the entry `(r, k)`. -/
theorem lift8192 (h : S8192x8192.Reduces [1] S8192) (r k : Fin 8192) : h.lift (ix1 r) k = ix2 r k := by
  funext a
  apply Fin.ext
  match a with
  | ⟨0, _⟩ => rfl
  | ⟨1, _⟩ => rfl

/-- A host reduction of the array along axis 1 with a commutative, associative body is, at row `r`, the fold over the row. -/
theorem hostRow_fold {α : Type} (f : α → α → α) [Std.Commutative f] [Std.Associative f] (y : S8192x8192.Idx → α) (init : S_.Idx → α)
    (h' : S8192x8192.ReducesTo [1] S8192) (hu : 0 < S_.numel) (r : Fin 8192) :
    Host.reduce f y init h' hu (ix1 r)
      = (Finset.univ : Finset (Fin 8192)).fold f (init (Shape.Idx.first hu)) (fun k => y (ix2 r k)) := by
  have h : S8192x8192.Reduces [1] S8192 := by decide
  have e := Host.reduce_eq_fold_single f y init h' h hu (ix1 r)
  exact e.trans (congrArg (fun g => (Finset.univ : Finset (Fin 8192)).fold f (init (Shape.Idx.first hu)) g)
    (funext fun k => congrArg y (lift8192 h r k)))

/-! ## The stages at the entry (r, k) and at row r -/

theorem same_ref (r k : Fin 8192) : val_main_v6 (F := Ideal) x1 (ix2 r k) = same (lab x1 r) (labs x1) k := by
  rw [val_main_v6_apply, val_main_v4_apply, val_main_v2_apply, val_main_v5_apply, val_main_v3_apply, i_v4v2, i_v5v3]
  rfl

theorem rowMax_ref (r : Fin 8192) : val_main_v7 (F := Ideal) x0 (ix1 r) = rowMax (row x0 r) := by
  unfold val_main_v7 rowMax
  exact hostRow_fold (FloatOps.maximumf (F := Ideal) (φ := .f32)) x0 _ _ _ r

theorem posMask_ref (r k : Fin 8192) :
    val_main_v13 (F := Ideal) x0 x1 (ix2 r k) = posMask (row x0 r) (lab x1 r) (labs x1) k := by
  rw [val_main_v13_apply, same_ref, val_main_v12_apply, val_main_v11_apply, val_main_v10_apply, val_main_v8_apply, i_v11v8,
    rowMax_ref, val_main_v9_apply, val_main_cst_0_apply]
  rfl

theorem negMask_ref (r k : Fin 8192) : val_main_v14 (F := Ideal) x1 (ix2 r k) = negMask (lab x1 r) (labs x1) k := by
  rw [val_main_v14_apply, same_ref, not_eq_xori]
  rfl

theorem minPos_ref (r : Fin 8192) : val_main_v16 (F := Ideal) x0 x1 (ix1 r) = minPos (row x0 r) (lab x1 r) (labs x1) := by
  unfold val_main_v16 minPos
  refine (hostRow_fold (FloatOps.minimumf (F := Ideal) (φ := .f32)) _ _ _ _ r).trans ?_
  refine congrArg (fun g => (Finset.univ : Finset (Fin 8192)).fold min (Ideal.ofBits .f32 0x7F800000#32) g) (funext fun k => ?_)
  rw [val_main_v15_apply, posMask_ref, val_main_call0_v0_apply, val_main_cst_1_apply]
  rfl

theorem maxNeg_ref (r : Fin 8192) : val_main_v20 (F := Ideal) x0 x1 (ix1 r) = maxNeg (row x0 r) (lab x1 r) (labs x1) := by
  unfold val_main_v20 maxNeg
  refine (hostRow_fold (FloatOps.maximumf (F := Ideal) (φ := .f32)) _ _ _ _ r).trans ?_
  refine congrArg (fun g => (Finset.univ : Finset (Fin 8192)).fold max (Ideal.ofBits .f32 0xFF800000#32) g) (funext fun k => ?_)
  rw [val_main_v19_apply, negMask_ref, val_main_call1_v0_apply, val_main_v18_apply, val_main_cst_3_apply]
  show Scalar.select _ _ (-(Ideal.ofBits .f32 0x7149F2CA#32)) = _
  rw [lit_neg_big]

theorem negSel_ref (r k : Fin 8192) :
    val_main_v26 (F := Ideal) x0 x1 (ix2 r k) = negSel (row x0 r) (lab x1 r) (labs x1) k := by
  rw [val_main_v26_apply, negMask_ref, val_main_v25_apply, val_main_v23_apply, val_main_v22_apply, val_main_cst_5_apply,
    val_main_v24_apply, val_main_v17_apply, i_v24v17, minPos_ref]
  rfl

theorem posSel_ref (r k : Fin 8192) :
    val_main_v31 (F := Ideal) x0 x1 (ix2 r k) = posSel (row x0 r) (lab x1 r) (labs x1) k := by
  rw [val_main_v31_apply, posMask_ref, val_main_v30_apply, val_main_v28_apply, val_main_v27_apply, val_main_cst_6_apply,
    val_main_v29_apply, val_main_v21_apply, i_v29v21, maxNeg_ref]
  rfl

theorem posTerm_ref (r k : Fin 8192) :
    val_main_v37 (F := Ideal) x0 x1 (ix2 r k)
      = Scalar.select (posSel (row x0 r) (lab x1 r) (labs x1) k) (posExp (row x0 r) k) (Ideal.ofBits .f32 0x00000000#32) := by
  rw [val_main_v37_apply, posSel_ref, val_main_v36_apply, val_main_v35_apply, val_main_v34_apply, val_main_cst_8_apply,
    val_main_v33_apply, val_main_v32_apply, val_main_cst_7_apply, val_main_call2_v1_apply, val_main_call2_v0_apply,
    val_main_cst_9_apply]
  rfl

theorem negTerm_ref (r k : Fin 8192) :
    val_main_v44 (F := Ideal) x0 x1 (ix2 r k)
      = Scalar.select (negSel (row x0 r) (lab x1 r) (labs x1) k) (negExp (row x0 r) k) (Ideal.ofBits .f32 0x00000000#32) := by
  rw [val_main_v44_apply, negSel_ref, val_main_v43_apply, val_main_v42_apply, val_main_v41_apply, val_main_cst_12_apply,
    val_main_v40_apply, val_main_v39_apply, val_main_cst_11_apply, val_main_call3_v1_apply, val_main_call3_v0_apply,
    val_main_cst_13_apply]
  rfl

theorem posSum_ref (r : Fin 8192) : val_main_v38 (F := Ideal) x0 x1 (ix1 r) = posSum (row x0 r) (lab x1 r) (labs x1) := by
  rw [val_main_v38_apply, val_main_cst_10_apply]
  show Ideal.ofBits .f32 0x00000000#32 + _ = _
  rw [Ideal.ofBits_zero_f32, zero_add]
  unfold posSum
  refine Finset.sum_congr rfl fun k _ => ?_
  rw [i_v38, posTerm_ref]

theorem negSum_ref (r : Fin 8192) : val_main_v45 (F := Ideal) x0 x1 (ix1 r) = negSum (row x0 r) (lab x1 r) (labs x1) := by
  rw [val_main_v45_apply, val_main_cst_14_apply]
  show Ideal.ofBits .f32 0x00000000#32 + _ = _
  rw [Ideal.ofBits_zero_f32, zero_add]
  unfold negSum
  refine Finset.sum_congr rfl fun k _ => ?_
  rw [i_v45, negTerm_ref]

theorem anyPos_ref (r : Fin 8192) :
    val_main_v46 (F := Ideal) x0 x1 (ix1 r) = (Finset.univ : Finset (Fin 8192)).fold IntOp.ori 0#1 (posSel (row x0 r) (lab x1 r) (labs x1)) := by
  unfold val_main_v46
  refine (hostRow_fold IntOp.ori _ _ _ _ r).trans ?_
  exact congrArg (fun g => (Finset.univ : Finset (Fin 8192)).fold IntOp.ori 0#1 g) (funext fun k => posSel_ref x0 x1 r k)

theorem anyNeg_ref (r : Fin 8192) :
    val_main_v47 (F := Ideal) x0 x1 (ix1 r) = (Finset.univ : Finset (Fin 8192)).fold IntOp.ori 0#1 (negSel (row x0 r) (lab x1 r) (labs x1)) := by
  unfold val_main_v47
  refine (hostRow_fold IntOp.ori _ _ _ _ r).trans ?_
  exact congrArg (fun g => (Finset.univ : Finset (Fin 8192)).fold IntOp.ori 0#1 g) (funext fun k => negSel_ref x0 x1 r k)

/-- The reference's row loss at row `r`, when that row of the similarities holds real numbers. -/
theorem rowLoss_ref (r : Fin 8192) (hfin : ∀ k, ∃ t : ℝ, x0 (ix2 r k) = t) :
    val_main_v57 (F := Ideal) x0 x1 (ix1 r) = rowLoss (row x0 r) (lab x1 r) (labs x1) := by
  rw [val_main_v57_apply, val_main_v1_apply, val_main_v0_apply, val_main_c_apply, val_main_v56_apply,
    val_main_v51_apply, anyPos_ref, val_main_v50_apply, val_main_v48_apply, posSum_ref, val_main_v49_apply, val_main_cst_17_apply,
    val_main_call4_v1_apply, val_main_call4_v0_apply, val_main_cst_18_apply,
    val_main_v55_apply, anyNeg_ref, val_main_v54_apply, val_main_v52_apply, negSum_ref, val_main_v53_apply, val_main_cst_19_apply,
    val_main_call5_v1_apply, val_main_call5_v0_apply, val_main_cst_20_apply,
    val_main_call6_v1_apply, val_main_call6_v0_apply, val_main_cst_21_apply,
    anyPos_eq _ _ _ hfin, anyNeg_eq _ _ _ hfin]
  rfl

end Cert.ReferenceIdeal.RowValue

end
-- ==== Proof.RefResult.lean ====
/-
  The reference's result: the mean over the batch of the row losses.

  Its last two operations sum the vector of row losses over every index, from zero, and divide by 8192; with each row loss
  the function `rowLoss` of its row (on rows of real numbers), the result is the function `G` of the two argument arrays.
-/
import proofs.«138227_j88880053223606_2_alg».proof.Proof.RefRow
import proofs.«138227_j88880053223606_2_alg».proof.Proof.Total

noncomputable section

namespace Cert.ReferenceIdeal.RowValue

open Idealize.ShloMosaic Idealize.ShloMosaic.ValueIdx Cert.ReferenceIdeal Cert.ReferenceIdeal.Gen Cert.ReferenceIdeal.ReadP Cert.MsLoss

variable (x0 : (⟨S8192x8192, .f32⟩ : BufTy).Contents (Elt Ideal)) (x1 : (⟨S8192, .i32⟩ : BufTy).Contents (Elt Ideal))

/-- On an array of real numbers the reference's result is `G` of the arguments. -/
theorem result_ref (hfin : ∀ i, ∃ t : ℝ, x0 i = t) : val_main_v59 (F := Ideal) x0 x1 = G x0 x1 := by
  funext j
  rw [val_main_v59_apply, val_main_v58_apply, val_main_cst_22_apply, val_main_cst_23_apply, sum_idx1]
  unfold G total
  refine congrArg (fun s => Ideal.div (Ideal.ofBits .f32 0x00000000#32 + s) (Ideal.ofBits .f32 0x46000000#32)) ?_
  exact Finset.sum_congr rfl fun r _ => rowLoss_ref x0 x1 r fun k => hfin _

end Cert.ReferenceIdeal.RowValue

end
-- ==== Proof.Finite.lean ====
/-
  The precondition: every similarity is a real number.

  The printed predicate is `all (|x| < +∞)`, one conjunction over the whole array. Where it is 1, every entry's comparison
  is 1; and on the extended reals `|x| = max x (-x)` is below `+∞` only at a real `x` (at `±∞` it is `+∞`).
-/
import proofs.«138227_j88880053223606_2_alg».proof.Pre_finite_inputs
import proofs.«138227_j88880053223606_2_alg».proof.Proof.Gen.Pre_finite_inputs
import Idealize.ShloMosaic.PureOps.Ideal.Laws
import Idealize.ShloMosaic.Lib.ReduceAll
import Idealize.ShloMosaic.Lib.IdealHost

noncomputable section

namespace Cert.Pre_finite_inputs.Hand

open Idealize.ShloMosaic Idealize.ShloMosaic.ValueIdx Cert.Pre_finite_inputs Cert.Pre_finite_inputs.Gen

/-- A rank-0 array has one index. -/
instance : Subsingleton S_.Idx := ⟨fun _ _ => funext fun d => d.elim0⟩

/-- `|x| < +∞` holds of a real `x` only. -/
theorem real_of_abs_lt_top (x : EReal)
    (h : Ideal.cmp .olt (max x (-x)) (Ideal.ofBits .f32 0x7F800000#32) = 1#1) : ∃ t : ℝ, x = t := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- Where the precondition holds, every entry of the first argument is a real number. -/
theorem finite_of_pre (x0 : FVec Ideal S8192x8192 .f32) (x1 : IVec S8192 32)
    (h : fn (F := Ideal) x0 x1 = fun _ => 1#1) (i : S8192x8192.Idx) : ∃ t : ℝ, x0 i = t := by
  have h0 := congrFun h ix0
  dsimp only [fn] at h0
  have hi := Host.reduce_andi_all _ _ _ _ _ h0 i
  rw [cmpf_apply, broadcastInDim_scalar_apply] at hi
  exact real_of_abs_lt_top (x0 i) hi

end Cert.Pre_finite_inputs.Hand

end
-- ==== Proof.lean ====
/-
  The multi-similarity loss kernel against its jnp reference, over the extended reals.

  Both programs compute, for a batch of 8192 rows of similarities and their labels, the mean over the batch of a row loss:
  for row r, with the positive candidates (same label, more than ε below the row's maximum) and the negative candidates
  (another label), the positives within δ of the greatest negative and the negatives within δ of the least positive are
  selected, and the loss is log(1 + Σ e^{-2 (x - 1/2)}) / 2 over the selected positives plus log(1 + Σ e^{40 (x - 1/2)}) / 40
  over the selected negatives, each summand only if its selection is not empty, and 0 for a row labelled 0 (Proof/RowLoss.lean).

  The kernel works on 64 blocks of 128 rows and stores a column of row losses, which the host then sums and divides by
  8192 (Proof/KernelRow.lean: the stored column row by row; Proof/KernelArray.lean: the blocks tile the column; Proof/KernelRun.lean:
  the sum and the run). The reference works on the whole array (Proof/RefRow.lean, Proof/RefResult.lean). The two differ in how
  they decide that a selection is not empty: the reference by a disjunction over the row, the kernel by asking whether the masked
  sum of exponentials is above zero. On the extended reals e^{-∞} = 0, so the two agree only where the exponents are real
  numbers: this is where the precondition, every similarity finite, is used (Proof/Finite.lean). Everything else is the same
  arithmetic in another arrangement: keepdims columns for vectors, a sum over [8192, 1] for a sum over [8192], the literal
  -1e30 for the negation of 1e30, exclusive or with 1 for the complement of a bit.

  The ideal pass rewrote no operation of the kernel, so nothing is owed for `preserves`; the three frames are the generated frame
  runs (the reference's: its run with the result dropped).
-/
import proofs.«138227_j88880053223606_2_alg».proof.Defs
import proofs.«138227_j88880053223606_2_alg».proof.Proof.Gen.Kernel
import proofs.«138227_j88880053223606_2_alg».proof.Proof.Gen.Kernel.Skeleton
import proofs.«138227_j88880053223606_2_alg».proof.Proof.Gen.Kernel.Launch
import proofs.«138227_j88880053223606_2_alg».proof.Proof.Gen.Kernel.Points
import proofs.«138227_j88880053223606_2_alg».proof.Proof.Gen.Kernel.Frame
import proofs.«138227_j88880053223606_2_alg».proof.Proof.Gen.KernelIdeal
import proofs.«138227_j88880053223606_2_alg».proof.Proof.Gen.KernelIdeal.Skeleton
import proofs.«138227_j88880053223606_2_alg».proof.Proof.Gen.KernelIdeal.Launch
import proofs.«138227_j88880053223606_2_alg».proof.Proof.Gen.KernelIdeal.Points
import proofs.«138227_j88880053223606_2_alg».proof.Proof.Gen.KernelIdeal.Frame
import proofs.«138227_j88880053223606_2_alg».proof.Proof.Gen.ReferenceIdeal
import proofs.«138227_j88880053223606_2_alg».proof.Proof.Gen.Pre_finite_inputs
import proofs.«138227_j88880053223606_2_alg».proof.Proof.RefRunP
import proofs.«138227_j88880053223606_2_alg».proof.Proof.RefReadP
import proofs.«138227_j88880053223606_2_alg».proof.Proof.KernelRun
import proofs.«138227_j88880053223606_2_alg».proof.Proof.RefResult
import proofs.«138227_j88880053223606_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The ideal pass's ledger is empty. -/
theorem preserves : Cert.preserves_Kernel_KernelIdeal := trivial

/-- From memories agreeing on the arguments, with every similarity finite, both programs end at `G` of the arguments. -/
theorem algebraic : Cert.algebraic_KernelIdeal_ReferenceIdeal := by
  intro m ρ m' ρ' hpre hagree
  refine ⟨fun c => Cert.MsLoss.G (Cert.KernelIdeal.ArrayValue.sim m c) (Cert.KernelIdeal.ArrayValue.labl m c),
    Cert.KernelIdeal.ArrayValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v59_eq, (hagree c).1, (hagree c).2]
  exact Cert.ReferenceIdeal.RowValue.result_ref _ _ fun i => Cert.Pre_finite_inputs.Hand.finite_of_pre _ _ (hpre c) i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
